-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel

variable [Facts]

def fn {F : FTy → Type} [FloatOps F] (main_arg0 : FVec F S32x2048 .f32) (main_arg1 : FVec F S32x2048 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  main_v8
-- ==== Kernel.lean ====
abbrev S32x2048 : Shape := ⟨2, ![32, 2048]⟩
abbrev S1x1 : Shape := ⟨2, ![1, 1]⟩
abbrev S32x128 : Shape := ⟨2, ![32, 128]⟩
abbrev S32x128x1 : Shape := ⟨3, ![32, 128, 1]⟩
abbrev S32x1x128 : Shape := ⟨3, ![32, 1, 128]⟩
abbrev S32x128x128 : Shape := ⟨3, ![32, 128, 128]⟩
abbrev S128x128 : Shape := ⟨2, ![128, 128]⟩
abbrev S1x128x128 : Shape := ⟨3, ![1, 128, 128]⟩
abbrev S32 : Shape := ⟨1, ![32]⟩
abbrev S32x1 : Shape := ⟨2, ![32, 1]⟩
abbrev S1 : Shape := ⟨1, ![1]⟩
abbrev S_ : Shape := ⟨0, ![]⟩

abbrev nBuf : Space → Nat
  | .hbm => 6
  | .vmem => 3
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S32x2048, .f32⟩
  | .local _ .vmem, ⟨1, _⟩ => ⟨S32x2048, .f32⟩
  | .local _ .vmem, ⟨2, _⟩ => ⟨S1x1, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let arg1 : BitVec 32 := BitVec.ofNat 32 (i 1).val
  let v5 : BitVec 1 := Scalar.cmpi .sle arg0 arg1
  let v6 : BitVec 32 := Scalar.extui v5
  let c0_i32_2 : BitVec 32 := 0#32
  let v7 : BitVec 1 := Scalar.cmpi .ne v6 c0_i32_2
  v7

def k0_mult1 (i : grid0.Coords) : BitVec 32 :=
  let arg0 : BitVec 32 := BitVec.ofNat 32 (i 0).val
  let c128_i32 : BitVec 32 := 128#32
  let v8 : BitVec 32 := Scalar.muli arg0 c128_i32
  v8
def k0_mult2 (i : grid0.Coords) : BitVec 32 :=
  let arg1 : BitVec 32 := BitVec.ofNat 32 (i 1).val
  let c128_i32_3 : BitVec 32 := 128#32
  let v10 : BitVec 32 := Scalar.muli arg1 c128_i32_3
  v10
def k0_off1 (i : grid0.Coords) : Fin 2 → Nat :=
  let c0 : Index := 0#32
  let arg0 : BitVec 32 := BitVec.ofNat 32 (i 0).val
  let c128_i32 : BitVec 32 := 128#32
  let v8 : BitVec 32 := Scalar.muli arg0 c128_i32
  let v9 : BitVec 32 := v8
  let v12 : Index := Scalar.indexCast v9
  ![0, v12.toNat]
def k0_off2 (i : grid0.Coords) : Fin 2 → Nat :=
  let c0_5 : Index := 0#32
  let arg1 : BitVec 32 := BitVec.ofNat 32 (i 1).val
  let c128_i32_3 : BitVec 32 := 128#32
  let v10 : BitVec 32 := Scalar.muli arg1 c128_i32_3
  let v11 : BitVec 32 := v10
  let v16 : Index := Scalar.indexCast v11
  ![0, v16.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  h_S32x128 : 0 < S32x128.numel
  shapeCasts_S32x128_S32x128x1 : S32x128.ShapeCasts S32x128x1
  shapeCasts_S32x128_S32x1x128 : S32x128.ShapeCasts S32x1x128
  broadcasts_S32x128x1_S32x128x128 : S32x128x1.Broadcasts S32x128x128
  broadcasts_S32x1x128_S32x128x128 : S32x1x128.Broadcasts S32x128x128
  iota_S128x128_d0_w32 : S128x128.Iotas .tc 32 [0]
  iota_S128x128_d1_w32 : S128x128.Iotas .tc 32 [1]
  natLt_1_32 : 1 < 32
  shapeCasts_S128x128_S1x128x128 : S128x128.ShapeCasts S1x128x128
  broadcasts_S1x128x128_S32x128x128 : S1x128x128.Broadcasts S32x128x128
  reduces_S32x128x128_S32x128 : S32x128x128.Reduces [2] S32x128
  reduces_S32x128_S32 : S32x128.Reduces [1] S32
  shapeCasts_S32_S32x1 : S32.ShapeCasts S32x1
  reduces_S32x1_S1 : S32x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  k0_mult1_dvd : ∀ i : grid0.Coords, ∀ (k0_h2 : k0_cond2 i = 1#1), 128 ∣ (k0_mult1 i).toNat
  k0_mult2_dvd : ∀ i : grid0.Coords, ∀ (k0_h2 : k0_cond2 i = 1#1), 128 ∣ (k0_mult2 i).toNat
  k0_off1_inb : ∀ i : grid0.Coords, ∀ (k0_h2 : k0_cond2 i = 1#1), ∀ a, (k0_off1 i) a + S32x128.size a ≤ S32x2048.size a
  k0_off2_inb : ∀ i : grid0.Coords, ∀ (k0_h2 : k0_cond2 i = 1#1), ∀ a, (k0_off2 i) a + S32x128.size a ≤ S32x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S32x2048.size a
  hwx0_1 : ∀ i : grid0.Coords, EltTy.bits .f32 = 32 ∨ (Rect.block (s := S32x2048) S32x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S32x2048 : Shape := ⟨2, ![32, 2048]⟩
abbrev S32x2048x1 : Shape := ⟨3, ![32, 2048, 1]⟩
abbrev S32x1x2048 : Shape := ⟨3, ![32, 1, 2048]⟩
abbrev S32x2048x2048 : Shape := ⟨3, ![32, 2048, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S32x2048, .f32⟩
  | .hbm, ⟨3, _⟩ => ⟨S32x2048x1, .f32⟩
  | .hbm, ⟨4, _⟩ => ⟨S32x1x2048, .f32⟩
  | .hbm, ⟨5, _⟩ => ⟨S32x2048x2048, .f32⟩
  | .hbm, ⟨6, _⟩ => ⟨S32x2048x2048, .f32⟩
  | .hbm, ⟨7, _⟩ => ⟨S32x2048x2048, .f32⟩
  | .hbm, ⟨8, _⟩ => ⟨S_, .f32⟩
  | .hbm, ⟨9, _⟩ => ⟨S2048x2048, .f32⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S32x2048x2048, .f32⟩
  | .hbm, ⟨20, _⟩ => ⟨S1x2048x2048, .f32⟩
  | .hbm, ⟨21, _⟩ => ⟨S32x2048x2048, .f32⟩
  | .hbm, ⟨22, _⟩ => ⟨S32x2048x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S32x2048x2048_0_1_2 : S1x2048x2048.BroadcastsInDim S32x2048x2048 (![0, 1, 2] : Fin 3 → Fin S32x2048x2048.rank)
  reducesTo_S32x2048x2048_S_d0_1_2 : S32x2048x2048.ReducesTo [0, 1, 2] S_
  h_S_ : 0 < S_.numel

variable [Facts₀]

class Facts : Prop extends Facts₀ where

variable [Facts]
-- ==== Proof.WordPoint.lean ====
import proofs.«167769_j58935541235978_2_alg».proof.Proof.Gen.Kernel.Frame
import proofs.«167769_j58935541235978_2_alg».proof.Proof.Gen.Kernel.Skeleton
import Idealize.ShloMosaic.Lib.Pipeline.Value

set_option maxRecDepth 16384

noncomputable section

namespace Cert.Kernel.Point

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# One grid point of the pairwise-squared-difference kernel

The grid is 16 × 16 tile pairs (I, J) over the 2048 columns, 128 columns per tile. At the first point the kernel
zeroes its one-element accumulator; at every point with I ≤ J it adds that tile pair's masked sum of squared
differences to the accumulator; at a point with I > J it touches nothing. This module states which of the three
happens at a point, what the accumulator holds afterwards as a function of the two input arrays and of what it held
before, and that the body run from the three staging buffers ends with them so.
-/

/-! ## Which branch a grid point takes -/

/-- The accumulator is zeroed exactly at the first point. -/
theorem reset_iff : ∀ t : Fin cfg0.N, k0_cond1 (grid0.coords t) = 1#1 ↔ t.val = 0 :=
  (by decide +kernel : ∀ t : Fin grid0.N, k0_cond1 (grid0.coords t) = 1#1 ↔ t.val = 0)

/-- The first point is a diagonal tile pair, so it also adds. -/
theorem add_of_reset : ∀ t : Fin cfg0.N, k0_cond1 (grid0.coords t) = 1#1 → k0_cond2 (grid0.coords t) = 1#1 :=
  (by decide +kernel : ∀ t : Fin grid0.N, k0_cond1 (grid0.coords t) = 1#1 → k0_cond2 (grid0.coords t) = 1#1)

/-- The accumulator's buffer is untouched exactly where the point neither zeroes nor adds. -/
theorem idle_iff : ∀ t : Fin cfg0.N, cfg0.idle 2 (grid0.coords t) = true ↔ (¬ k0_cond1 (grid0.coords t) = 1#1 ∧ ¬ k0_cond2 (grid0.coords t) = 1#1) :=
  (by decide +kernel : ∀ t : Fin grid0.N, idle0 2 (grid0.coords t) = true ↔ (¬ k0_cond1 (grid0.coords t) = 1#1 ∧ ¬ k0_cond2 (grid0.coords t) = 1#1))

theorem live0 : ∀ t : Fin cfg0.N, cfg0.idle 0 (grid0.coords t) = false := fun _ => rfl
theorem live1 : ∀ t : Fin cfg0.N, cfg0.idle 1 (grid0.coords t) = false := fun _ => rfl

/-- The accumulator is written back only after the last point, (15, 15), which adds. -/
theorem adds_of_flush : ∀ t : Fin cfg0.N, (cfg0.win 2).flush t = true → k0_cond2 (grid0.coords t) = 1#1 :=
  (by decide +kernel : ∀ t : Fin grid0.N, win0_2.flush t = true → k0_cond2 (grid0.coords t) = 1#1)

/-! ## What an adding point leaves in the accumulator -/

theorem zero_off : (![0, 0] : Fin 2 → Nat) = fun _ => 0 := funext fun a => by fin_cases a <;> rfl

/-- The accumulator after an adding point (I, J): the tile pair's sum, computed from columns 128·I … and 128·J … of the two
    arrays, added to what the accumulator held (`xo`). -/
def addOut (i : grid0.Coords) (h2 : k0_cond2 i = 1#1) (x0 x1 : Vec F S32x2048 .f32) (xo : Vec F S1x1 .f32) : Vec F S1x1 .f32 :=
  k0_pay2 i (View.ld x0 (Rect.unit (s := S32x2048) (k0_off1 i) S32x128.size (k0_off1_inb i h2)))
    (View.ld x1 (Rect.unit (s := S32x2048) (k0_off1 i) S32x128.size (k0_off1_inb i h2)))
    (View.ld x0 (Rect.unit (s := S32x2048) (k0_off2 i) S32x128.size (k0_off2_inb i h2)))
    (View.ld x1 (Rect.unit (s := S32x2048) (k0_off2 i) S32x128.size (k0_off2_inb i h2))) xo

/-! ## The body at a point of each kind -/

set_option maxHeartbeats 1000000 in
/-- A point that adds without zeroing: the inputs stay, the accumulator goes from `xo` to `addOut … xo`. -/
theorem run_add (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : ¬ k0_cond1 i = 1#1) (hc2 : k0_cond2 i = 1#1)
    (x0 x1 : Vec F S32x2048 .f32) (xo : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (addOut i hc2 x0 x1 xo)) -∗ K ⟨⟩))
      ⊢ wp frame (wpE (defs₀ (F := F)) Variants.none c none) E (cc0__mpse_kernel i arg2 harg2 arg3 harg3 arg4 harg4) K := by
  simp only [cc0__mpse_kernel_eq_skeleton]; unfold cc0__mpse_kernel_skel
  unfold owns
  iintro ⟨⟨%f0, %hf0, H0⟩, ⟨%f1, %hf1, H1⟩, ⟨%f2, %hf2, H2⟩, Hk⟩
  obtain rfl := harg2.eq_unread hf0
  obtain rfl := harg3.eq_unread hf1
  obtain rfl := harg4.eq_unread hf2
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_singleton_self _, View.mem_set_unit_zero zero_off Facts₀.inb_S1x1_S1x1_0_0 y⟩),
    View.canon_unit_zero zero_off]
  simp only [View.readAt_eq_ld, harg2.read_unread, harg3.read_unread, harg4.read_unread, View.ld_unit_zero (S := S1x1) zero_off]
  rfl

set_option maxHeartbeats 1000000 in
/-- The first point: the accumulator, whatever it held, is zeroed and the tile pair's sum added to the zero. -/
theorem run_reset (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : k0_cond1 i = 1#1) (hc2 : k0_cond2 i = 1#1)
    (x0 x1 : Vec F S32x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (addOut i hc2 x0 x1 (k0_pay1 (F := F)))) -∗ K ⟨⟩))
      ⊢ wp frame (wpE (defs₀ (F := F)) Variants.none c none) E (cc0__mpse_kernel i arg2 harg2 arg3 harg3 arg4 harg4) K := by
  simp only [cc0__mpse_kernel_eq_skeleton]; unfold cc0__mpse_kernel_skel
  unfold owns
  iintro ⟨⟨%f0, %hf0, H0⟩, ⟨%f1, %hf1, H1⟩, ⟨%d2, %f2, -, H2⟩, Hk⟩
  obtain rfl := harg2.eq_unread hf0
  obtain rfl := harg3.eq_unread hf1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  sl_unfold_run_names
  rw [View.read_writes_eq_canon _ _ _ (fun y => ⟨_, List.Mem.head _, View.mem_set_unit_zero zero_off Facts₀.inb_S1x1_S1x1_0_0 y⟩),
    View.canon_cons_unit_zero zero_off, View.readCov_unit_zero (S := S1x1) _ zero_off]
  simp only [View.readAt_eq_ld, harg2.read_unread, harg3.read_unread]
  rfl

set_option maxHeartbeats 1000000 in
/-- A point below the diagonal: nothing is loaded or stored. -/
theorem run_idle (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : ¬ k0_cond1 i = 1#1) (hc2 : ¬ k0_cond2 i = 1#1) (E : Set ℕ) (K : PUnit → sProp 𝕄) :
    iprop(K ⟨⟩) ⊢ wp frame (wpE (defs₀ (F := F)) Variants.none c none) E (cc0__mpse_kernel i arg2 harg2 arg3 harg3 arg4 harg4) K := by
  simp only [cc0__mpse_kernel_eq_skeleton]; unfold cc0__mpse_kernel_skel
  iintro Hk
  sl_exec (disch := first | exact hc1 | exact hc2)
  sl_step
  iexact Hk

end Cert.Kernel.Point

end
-- ==== Proof.WordRun.lean ====
import proofs.«167769_j58935541235978_2_alg».proof.Proof.WordPoint
import Idealize.ShloMosaic.Lib.Pipeline.TableIdle

set_option maxRecDepth 16384

noncomputable section

namespace Cert.Kernel.Run

open Cert.Kernel Cert.Kernel.Gen Cert.Kernel.Point
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
# The whole run: the accumulator point by point

After point `n` of the 256 the one-element accumulator holds the sum of the tile-pair sums of the adding points up to
`n`: zero plus the first point's, then each later adding point's added on, an idle point leaving it as it was. With that
as the stated contents the body's obligation holds at every point, the program runs to its end without a fault, and
its two argument arrays are never written.
-/

abbrev ms0 (t : Fin cfg0.N) : Memref sig .tc .vmem S32x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-- The accumulator after point `n`. -/
def accAt (c : Dev nD) : (n : ℕ) → n < cfg0.N → Vec F S1x1 .f32
  | 0, hn => addOut (grid0.coords ⟨0, hn⟩) (add_of_reset ⟨0, hn⟩ ((reset_iff ⟨0, hn⟩).mpr rfl)) (iblk m c 0 ⟨0, hn⟩) (iblk m c 1 ⟨0, hn⟩) (k0_pay1 (F := F))
  | n + 1, hn =>
    if h2 : k0_cond2 (grid0.coords ⟨n + 1, hn⟩) = 1#1 then
      addOut (grid0.coords ⟨n + 1, hn⟩) h2 (iblk m c 0 ⟨n + 1, hn⟩) (iblk m c 1 ⟨n + 1, hn⟩) (accAt c n (Nat.lt_of_succ_lt hn))
    else accAt c n (Nat.lt_of_succ_lt hn)

theorem accAt_first (c : Dev nD) (t : Fin cfg0.N) (h0 : t.val = 0) (h2 : k0_cond2 (grid0.coords t) = 1#1) :
    accAt m c t.val t.isLt = addOut (grid0.coords t) h2 (iblk m c 0 t) (iblk m c 1 t) (k0_pay1 (F := F)) := by
  obtain ⟨n, hn⟩ := t
  cases n with
  | zero => rfl
  | succ n => exact absurd h0 (Nat.succ_ne_zero n)

theorem accAt_add (c : Dev nD) (t : Fin cfg0.N) (h0 : t.val ≠ 0) (h2 : k0_cond2 (grid0.coords t) = 1#1) :
    accAt m c t.val t.isLt = addOut (grid0.coords t) h2 (iblk m c 0 t) (iblk m c 1 t)
      (accAt m c (t.val - 1) (Nat.lt_of_le_of_lt (Nat.sub_le _ _) t.isLt)) := by
  obtain ⟨n, hn⟩ := t
  cases n with
  | zero => exact absurd rfl h0
  | succ n => exact (dif_pos h2).trans rfl

theorem accAt_idle (c : Dev nD) (t : Fin cfg0.N) (h0 : t.val ≠ 0) (h2 : ¬ k0_cond2 (grid0.coords t) = 1#1) :
    accAt m c t.val t.isLt = accAt m c (t.val - 1) (Nat.lt_of_le_of_lt (Nat.sub_le _ _) t.isLt) := by
  obtain ⟨n, hn⟩ := t
  cases n with
  | zero => exact absurd rfl h0
  | succ n => exact (dif_neg h2).trans rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input's staging buffer holds the whole array at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The accumulator's buffer holds nothing stated only before the first point (and after the last). -/
theorem fresh2 : ∀ n, n ≤ cfg0.N → cfg0.fresh 2 n = (n == 0 || n == 256) :=
  Pipeline.Cfg.fresh_tab cfg0 2 (fun n => n == 0 || n == 256) rfl
    (by decide +kernel : ∀ t : Fin grid0.N, (t.val + 1 == 0 || t.val + 1 == 256) = (win0_2.flush t || (idle0 2 (grid0.coords t) && (t.val == 0 || t.val == 256))))

/-- After the first point the body finds in the accumulator what the point before left, idle points looked through. -/
theorem before2 (c : Dev nD) (t : Fin cfg0.N) (ht : t.val ≠ 0) (d) :
    (dats m 0 c).before 2 t d = accAt m c (t.val - 1) (Nat.lt_of_le_of_lt (Nat.sub_le _ _) t.isLt) := by
  have hN : t.val < 256 := lt_of_lt_of_eq t.isLt (show cfg0.N = 256 from N_0)
  rw [Dat.before_out_traj (dats m 0 c) 2 rfl (fun _ _ => rfl)
    (fun t ht hi _ => by rw [after2, after2]; exact accAt_idle m c t ht ((idle_iff t).mp hi).2) t.val t rfl d,
    fresh2 t.val (le_of_lt t.isLt)]
  have hb : (t.val == 0 || t.val == 256) = false := by
    rw [Bool.or_eq_false_iff]; exact ⟨beq_false_of_ne ht, beq_false_of_ne (by omega)⟩
  rw [hb, if_neg Bool.false_ne_true, after2]

theorem live2 (t : Fin cfg0.N) (h2 : k0_cond2 (grid0.coords t) = 1#1) : cfg0.idle 2 (grid0.coords t) = false :=
  Bool.eq_false_iff.mpr fun hi => ((idle_iff t).mp hi).2 h2

theorem noflush (t : Fin cfg0.N) (h2 : ¬ k0_cond2 (grid0.coords t) = 1#1) : (cfg0.win 2).flush t = false :=
  Bool.eq_false_iff.mpr fun hf => h2 (adds_of_flush t hf)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  by_cases h1 : k0_cond1 (grid0.coords t) = 1#1
  · have h2 := add_of_reset t h1
    have hz := (reset_iff t).mp h1
    rw [show (dats m 0 c).leavesExact 2 t = owns (c : Thread nD τ) (ms2 t) fullShare ((dats m 0 c).after 2 t) from by
        unfold Dat.leavesExact; rw [live2 t h2], after2, accAt_first m c t hz h2]
    iintro ⟨HΦ, Ho, ⟨%d0, H0⟩, ⟨%d1, H1⟩, ⟨%d2, H2⟩⟩
    iapply (run_reset c (grid0.coords t) _ _ _ _ _ _ h1 h2 (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · have hz : t.val ≠ 0 := fun h => h1 ((reset_iff t).mpr h)
    by_cases h2 : k0_cond2 (grid0.coords t) = 1#1
    · rw [show (dats m 0 c).leavesExact 2 t = owns (c : Thread nD τ) (ms2 t) fullShare ((dats m 0 c).after 2 t) from by
          unfold Dat.leavesExact; rw [live2 t h2], after2, accAt_add m c t hz h2]
      simp only [before2 m c t hz]
      iintro ⟨HΦ, Ho, ⟨%d0, H0⟩, ⟨%d1, H1⟩, ⟨%d2, H2⟩⟩
      iapply (run_add c (grid0.coords t) _ _ _ _ _ _ h1 h2 (iblk m c 0 t) (iblk m c 1 t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [Dat.leavesExact_idle (dats m 0 c) 2 t ((idle_iff t).mpr ⟨h1, h2⟩) (noflush t h2)]
      iintro ⟨HΦ, Ho, ⟨%d0, H0⟩, ⟨%d1, H1⟩, H2⟩
      iapply (run_idle c (grid0.coords t) _ _ _ _ _ _ h1 h2 Set.univ _)
      isplitl [HΦ]; · iexact HΦ
      isplitl [Ho]; · iexact Ho
      isplitl [H0]; · iexact H0
      isplitl [H1]; · iexact H1
      iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end, nothing faults, and the two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Run

end
-- ==== Proof.IdealPoint.lean ====
import proofs.«167769_j58935541235978_2_alg».proof.Proof.Gen.KernelIdeal.Frame
import proofs.«167769_j58935541235978_2_alg».proof.Proof.Gen.KernelIdeal.Skeleton
import Idealize.ShloMosaic.Lib.Pipeline.Value

set_option maxRecDepth 16384

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# One grid point of the pairwise-squared-difference kernel

The grid is 16 × 16 tile pairs (I, J) over the 2048 columns, 128 columns per tile. At the first point the kernel
zeroes its one-element accumulator; at every point with I ≤ J it adds that tile pair's masked sum of squared
differences to the accumulator; at a point with I > J it touches nothing. This module states which of the three
happens at a point, what the accumulator holds afterwards as a function of the two input arrays and of what it held
before, and that the body run from the three staging buffers ends with them so.
-/

/-! ## Which branch a grid point takes -/

/-- The accumulator is zeroed exactly at the first point. -/
theorem reset_iff : ∀ t : Fin cfg0.N, k0_cond1 (grid0.coords t) = 1#1 ↔ t.val = 0 :=
  (by decide +kernel : ∀ t : Fin grid0.N, k0_cond1 (grid0.coords t) = 1#1 ↔ t.val = 0)

/-- The first point is a diagonal tile pair, so it also adds. -/
theorem add_of_reset : ∀ t : Fin cfg0.N, k0_cond1 (grid0.coords t) = 1#1 → k0_cond2 (grid0.coords t) = 1#1 :=
  (by decide +kernel : ∀ t : Fin grid0.N, k0_cond1 (grid0.coords t) = 1#1 → k0_cond2 (grid0.coords t) = 1#1)

/-- The accumulator's buffer is untouched exactly where the point neither zeroes nor adds. -/
theorem idle_iff : ∀ t : Fin cfg0.N, cfg0.idle 2 (grid0.coords t) = true ↔ (¬ k0_cond1 (grid0.coords t) = 1#1 ∧ ¬ k0_cond2 (grid0.coords t) = 1#1) :=
  (by decide +kernel : ∀ t : Fin grid0.N, idle0 2 (grid0.coords t) = true ↔ (¬ k0_cond1 (grid0.coords t) = 1#1 ∧ ¬ k0_cond2 (grid0.coords t) = 1#1))

theorem live0 : ∀ t : Fin cfg0.N, cfg0.idle 0 (grid0.coords t) = false := fun _ => rfl
theorem live1 : ∀ t : Fin cfg0.N, cfg0.idle 1 (grid0.coords t) = false := fun _ => rfl

/-- The accumulator is written back only after the last point, (15, 15), which adds. -/
theorem adds_of_flush : ∀ t : Fin cfg0.N, (cfg0.win 2).flush t = true → k0_cond2 (grid0.coords t) = 1#1 :=
  (by decide +kernel : ∀ t : Fin grid0.N, win0_2.flush t = true → k0_cond2 (grid0.coords t) = 1#1)

/-! ## What an adding point leaves in the accumulator -/

theorem zero_off : (![0, 0] : Fin 2 → Nat) = fun _ => 0 := funext fun a => by fin_cases a <;> rfl

/-- The accumulator after an adding point (I, J): the tile pair's sum, computed from columns 128·I … and 128·J … of the two
    arrays, added to what the accumulator held (`xo`). -/
def addOut (i : grid0.Coords) (h2 : k0_cond2 i = 1#1) (x0 x1 : Vec F S32x2048 .f32) (xo : Vec F S1x1 .f32) : Vec F S1x1 .f32 :=
  k0_pay2 i (View.ld x0 (Rect.unit (s := S32x2048) (k0_off1 i) S32x128.size (k0_off1_inb i h2)))
    (View.ld x1 (Rect.unit (s := S32x2048) (k0_off1 i) S32x128.size (k0_off1_inb i h2)))
    (View.ld x0 (Rect.unit (s := S32x2048) (k0_off2 i) S32x128.size (k0_off2_inb i h2)))
    (View.ld x1 (Rect.unit (s := S32x2048) (k0_off2 i) S32x128.size (k0_off2_inb i h2))) xo

/-! ## The body at a point of each kind -/

set_option maxHeartbeats 1000000 in
/-- A point that adds without zeroing: the inputs stay, the accumulator goes from `xo` to `addOut … xo`. -/
theorem run_add (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : ¬ k0_cond1 i = 1#1) (hc2 : k0_cond2 i = 1#1)
    (x0 x1 : Vec F S32x2048 .f32) (xo : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (addOut i hc2 x0 x1 xo)) -∗ K ⟨⟩))
      ⊢ wp frame (wpE (defs₀ (F := F)) Variants.none c none) E (cc0__mpse_kernel i arg2 harg2 arg3 harg3 arg4 harg4) K := by
  simp only [cc0__mpse_kernel_eq_skeleton]; unfold cc0__mpse_kernel_skel
  unfold owns
  iintro ⟨⟨%f0, %hf0, H0⟩, ⟨%f1, %hf1, H1⟩, ⟨%f2, %hf2, H2⟩, Hk⟩
  obtain rfl := harg2.eq_unread hf0
  obtain rfl := harg3.eq_unread hf1
  obtain rfl := harg4.eq_unread hf2
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_singleton_self _, View.mem_set_unit_zero zero_off Facts₀.inb_S1x1_S1x1_0_0 y⟩),
    View.canon_unit_zero zero_off]
  simp only [View.readAt_eq_ld, harg2.read_unread, harg3.read_unread, harg4.read_unread, View.ld_unit_zero (S := S1x1) zero_off]
  rfl

set_option maxHeartbeats 1000000 in
/-- The first point: the accumulator, whatever it held, is zeroed and the tile pair's sum added to the zero. -/
theorem run_reset (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : k0_cond1 i = 1#1) (hc2 : k0_cond2 i = 1#1)
    (x0 x1 : Vec F S32x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (addOut i hc2 x0 x1 (k0_pay1 (F := F)))) -∗ K ⟨⟩))
      ⊢ wp frame (wpE (defs₀ (F := F)) Variants.none c none) E (cc0__mpse_kernel i arg2 harg2 arg3 harg3 arg4 harg4) K := by
  simp only [cc0__mpse_kernel_eq_skeleton]; unfold cc0__mpse_kernel_skel
  unfold owns
  iintro ⟨⟨%f0, %hf0, H0⟩, ⟨%f1, %hf1, H1⟩, ⟨%d2, %f2, -, H2⟩, Hk⟩
  obtain rfl := harg2.eq_unread hf0
  obtain rfl := harg3.eq_unread hf1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  sl_unfold_run_names
  rw [View.read_writes_eq_canon _ _ _ (fun y => ⟨_, List.Mem.head _, View.mem_set_unit_zero zero_off Facts₀.inb_S1x1_S1x1_0_0 y⟩),
    View.canon_cons_unit_zero zero_off, View.readCov_unit_zero (S := S1x1) _ zero_off]
  simp only [View.readAt_eq_ld, harg2.read_unread, harg3.read_unread]
  rfl

set_option maxHeartbeats 1000000 in
/-- A point below the diagonal: nothing is loaded or stored. -/
theorem run_idle (c : Dev nD) (i : grid0.Coords) (arg2 : Memref sig .tc .vmem S32x2048 .f32) (harg2 : arg2.IsWhole)
    (arg3 : Memref sig .tc .vmem S32x2048 .f32) (harg3 : arg3.IsWhole) (arg4 : Memref sig .tc .vmem S1x1 .f32) (harg4 : arg4.IsWhole)
    (hc1 : ¬ k0_cond1 i = 1#1) (hc2 : ¬ k0_cond2 i = 1#1) (E : Set ℕ) (K : PUnit → sProp 𝕄) :
    iprop(K ⟨⟩) ⊢ wp frame (wpE (defs₀ (F := F)) Variants.none c none) E (cc0__mpse_kernel i arg2 harg2 arg3 harg3 arg4 harg4) K := by
  simp only [cc0__mpse_kernel_eq_skeleton]; unfold cc0__mpse_kernel_skel
  iintro Hk
  sl_exec (disch := first | exact hc1 | exact hc2)
  sl_step
  iexact Hk

end Cert.KernelIdeal.Point

end
-- ==== Proof.IdealRun.lean ====
import proofs.«167769_j58935541235978_2_alg».proof.Proof.IdealPoint
import Idealize.ShloMosaic.Lib.Pipeline.TableIdle

set_option maxRecDepth 16384

noncomputable section

namespace Cert.KernelIdeal.Run

open Cert.KernelIdeal Cert.KernelIdeal.Gen Cert.KernelIdeal.Point
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
# The whole run: the accumulator point by point

After point `n` of the 256 the one-element accumulator holds the sum of the tile-pair sums of the adding points up to
`n`: zero plus the first point's, then each later adding point's added on, an idle point leaving it as it was. With that
as the stated contents the body's obligation holds at every point, the program runs to its end without a fault, and
its two argument arrays are never written.
-/

abbrev ms0 (t : Fin cfg0.N) : Memref sig .tc .vmem S32x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-- The accumulator after point `n`. -/
def accAt (c : Dev nD) : (n : ℕ) → n < cfg0.N → Vec F S1x1 .f32
  | 0, hn => addOut (grid0.coords ⟨0, hn⟩) (add_of_reset ⟨0, hn⟩ ((reset_iff ⟨0, hn⟩).mpr rfl)) (iblk m c 0 ⟨0, hn⟩) (iblk m c 1 ⟨0, hn⟩) (k0_pay1 (F := F))
  | n + 1, hn =>
    if h2 : k0_cond2 (grid0.coords ⟨n + 1, hn⟩) = 1#1 then
      addOut (grid0.coords ⟨n + 1, hn⟩) h2 (iblk m c 0 ⟨n + 1, hn⟩) (iblk m c 1 ⟨n + 1, hn⟩) (accAt c n (Nat.lt_of_succ_lt hn))
    else accAt c n (Nat.lt_of_succ_lt hn)

theorem accAt_first (c : Dev nD) (t : Fin cfg0.N) (h0 : t.val = 0) (h2 : k0_cond2 (grid0.coords t) = 1#1) :
    accAt m c t.val t.isLt = addOut (grid0.coords t) h2 (iblk m c 0 t) (iblk m c 1 t) (k0_pay1 (F := F)) := by
  obtain ⟨n, hn⟩ := t
  cases n with
  | zero => rfl
  | succ n => exact absurd h0 (Nat.succ_ne_zero n)

theorem accAt_add (c : Dev nD) (t : Fin cfg0.N) (h0 : t.val ≠ 0) (h2 : k0_cond2 (grid0.coords t) = 1#1) :
    accAt m c t.val t.isLt = addOut (grid0.coords t) h2 (iblk m c 0 t) (iblk m c 1 t)
      (accAt m c (t.val - 1) (Nat.lt_of_le_of_lt (Nat.sub_le _ _) t.isLt)) := by
  obtain ⟨n, hn⟩ := t
  cases n with
  | zero => exact absurd rfl h0
  | succ n => exact (dif_pos h2).trans rfl

theorem accAt_idle (c : Dev nD) (t : Fin cfg0.N) (h0 : t.val ≠ 0) (h2 : ¬ k0_cond2 (grid0.coords t) = 1#1) :
    accAt m c t.val t.isLt = accAt m c (t.val - 1) (Nat.lt_of_le_of_lt (Nat.sub_le _ _) t.isLt) := by
  obtain ⟨n, hn⟩ := t
  cases n with
  | zero => exact absurd rfl h0
  | succ n => exact (dif_neg h2).trans rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input's staging buffer holds the whole array at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The accumulator's buffer holds nothing stated only before the first point (and after the last). -/
theorem fresh2 : ∀ n, n ≤ cfg0.N → cfg0.fresh 2 n = (n == 0 || n == 256) :=
  Pipeline.Cfg.fresh_tab cfg0 2 (fun n => n == 0 || n == 256) rfl
    (by decide +kernel : ∀ t : Fin grid0.N, (t.val + 1 == 0 || t.val + 1 == 256) = (win0_2.flush t || (idle0 2 (grid0.coords t) && (t.val == 0 || t.val == 256))))

/-- After the first point the body finds in the accumulator what the point before left, idle points looked through. -/
theorem before2 (c : Dev nD) (t : Fin cfg0.N) (ht : t.val ≠ 0) (d) :
    (dats m 0 c).before 2 t d = accAt m c (t.val - 1) (Nat.lt_of_le_of_lt (Nat.sub_le _ _) t.isLt) := by
  have hN : t.val < 256 := lt_of_lt_of_eq t.isLt (show cfg0.N = 256 from N_0)
  rw [Dat.before_out_traj (dats m 0 c) 2 rfl (fun _ _ => rfl)
    (fun t ht hi _ => by rw [after2, after2]; exact accAt_idle m c t ht ((idle_iff t).mp hi).2) t.val t rfl d,
    fresh2 t.val (le_of_lt t.isLt)]
  have hb : (t.val == 0 || t.val == 256) = false := by
    rw [Bool.or_eq_false_iff]; exact ⟨beq_false_of_ne ht, beq_false_of_ne (by omega)⟩
  rw [hb, if_neg Bool.false_ne_true, after2]

theorem live2 (t : Fin cfg0.N) (h2 : k0_cond2 (grid0.coords t) = 1#1) : cfg0.idle 2 (grid0.coords t) = false :=
  Bool.eq_false_iff.mpr fun hi => ((idle_iff t).mp hi).2 h2

theorem noflush (t : Fin cfg0.N) (h2 : ¬ k0_cond2 (grid0.coords t) = 1#1) : (cfg0.win 2).flush t = false :=
  Bool.eq_false_iff.mpr fun hf => h2 (adds_of_flush t hf)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  by_cases h1 : k0_cond1 (grid0.coords t) = 1#1
  · have h2 := add_of_reset t h1
    have hz := (reset_iff t).mp h1
    rw [show (dats m 0 c).leavesExact 2 t = owns (c : Thread nD τ) (ms2 t) fullShare ((dats m 0 c).after 2 t) from by
        unfold Dat.leavesExact; rw [live2 t h2], after2, accAt_first m c t hz h2]
    iintro ⟨HΦ, Ho, ⟨%d0, H0⟩, ⟨%d1, H1⟩, ⟨%d2, H2⟩⟩
    iapply (run_reset c (grid0.coords t) _ _ _ _ _ _ h1 h2 (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · have hz : t.val ≠ 0 := fun h => h1 ((reset_iff t).mpr h)
    by_cases h2 : k0_cond2 (grid0.coords t) = 1#1
    · rw [show (dats m 0 c).leavesExact 2 t = owns (c : Thread nD τ) (ms2 t) fullShare ((dats m 0 c).after 2 t) from by
          unfold Dat.leavesExact; rw [live2 t h2], after2, accAt_add m c t hz h2]
      simp only [before2 m c t hz]
      iintro ⟨HΦ, Ho, ⟨%d0, H0⟩, ⟨%d1, H1⟩, ⟨%d2, H2⟩⟩
      iapply (run_add c (grid0.coords t) _ _ _ _ _ _ h1 h2 (iblk m c 0 t) (iblk m c 1 t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [Dat.leavesExact_idle (dats m 0 c) 2 t ((idle_iff t).mpr ⟨h1, h2⟩) (noflush t h2)]
      iintro ⟨HΦ, Ho, ⟨%d0, H0⟩, ⟨%d1, H1⟩, H2⟩
      iapply (run_idle c (grid0.coords t) _ _ _ _ _ _ h1 h2 Set.univ _)
      isplitl [HΦ]; · iexact HΦ
      isplitl [Ho]; · iexact Ho
      isplitl [H0]; · iexact H0
      isplitl [H1]; · iexact H1
      iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end, nothing faults, and the two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Run

end
-- ==== Proof.LibReindex.lean ====
/-
  Re-indexing finite sums over consecutive indices. A sum over `n = a * b` indices is a double sum over `a`
  blocks of `b` indices each, the index written `i * b + j` or `b * i + j`; a sum over `n = a + b + c` indices
  is the sum of its three consecutive blocks. All over an arbitrary additive commutative monoid.
-/
import Mathlib.Algebra.BigOperators.Fin
import Mathlib.Logic.Equiv.Fin.Basic

namespace Cert.LibReindex

open scoped BigOperators

variable {M : Type*} [AddCommMonoid M]

/-- Position `j` of block `i`, among `a` blocks of `b`, lies below `a * b`. -/
theorem mul_add_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- The same with the block size written first. -/
theorem mul_add_lt' {a b : ℕ} (i : Fin a) (j : Fin b) : b * i.val + j.val < a * b :=
  Nat.mul_comm b i.val ▸ mul_add_lt i j

/-- A sum over `n = a * b` indices is the double sum over `a` blocks of `b`: the index is `i * b + j`. -/
theorem sum_mul_add {n : ℕ} (a b : ℕ) (hn : n = a * b) (f : Fin n → M) :
    ∑ r : Fin n, f r = ∑ i : Fin a, ∑ j : Fin b, f ⟨i.val * b + j.val, hn ▸ mul_add_lt i j⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.add_comm, Nat.mul_comm]

/-- A sum over `n = a * b` indices is the double sum over `a` blocks of `b`: the index is `b * i + j`. -/
theorem sum_mul_add' {n : ℕ} (a b : ℕ) (hn : n = a * b) (f : Fin n → M) :
    ∑ r : Fin n, f r = ∑ i : Fin a, ∑ j : Fin b, f ⟨b * i.val + j.val, hn ▸ mul_add_lt' i j⟩ := by
  rw [sum_mul_add a b hn f]
  refine Finset.sum_congr rfl fun i _ => Finset.sum_congr rfl fun j _ => congrArg f (Fin.ext ?_)
  show i.val * b + j.val = b * i.val + j.val
  rw [Nat.mul_comm]

/-- A sum over `n = a + b + c` indices is the sum of its three consecutive blocks. -/
theorem sum_three_blocks {n : ℕ} (a b c : ℕ) (hn : n = a + b + c) (f : Fin n → M) :
    ∑ k : Fin n, f k
      = (∑ i : Fin a, f ⟨i.val, by omega⟩ + ∑ i : Fin b, f ⟨a + i.val, by omega⟩)
        + ∑ i : Fin c, f ⟨a + b + i.val, by omega⟩ := by
  subst hn
  rw [Fin.sum_univ_add, Fin.sum_univ_add]
  rfl

end Cert.LibReindex
-- ==== Proof.LibRunTotal.lean ====
/-
  A running total built by recursion — zero plus the first term at the first index, the previous total plus the
  next term afterwards — is the finite sum of the terms so far; at the last index it is the sum of all terms. Over an
  arbitrary additive commutative monoid.
-/
import Mathlib.Algebra.BigOperators.Fin

namespace Cert.LibRunTotal

open scoped BigOperators

variable {M : Type*} [AddCommMonoid M]

/-- The running total of `f` up to and including index `n`: reset to zero and add at the first index, add at each later one. -/
def runTotal {N : ℕ} (f : Fin N → M) : (n : ℕ) → n < N → M
  | 0, h => 0 + f ⟨0, h⟩
  | n + 1, h => runTotal f n (Nat.lt_of_succ_lt h) + f ⟨n + 1, h⟩

/-- The running total up to `n` is the sum of the first `n + 1` terms. -/
theorem runTotal_eq_sum {N : ℕ} (f : Fin N → M) :
    ∀ (n : ℕ) (h : n < N), runTotal f n h = ∑ i : Fin (n + 1), f ⟨i.val, by omega⟩
  | 0, h => by simp [runTotal]
  | n + 1, h => by
    rw [runTotal, runTotal_eq_sum f n]
    exact (Fin.sum_univ_castSucc (fun i : Fin (n + 1 + 1) => f ⟨i.val, by omega⟩)).symm

/-- At the last index the running total is the sum of all terms. -/
theorem runTotal_last {N n : ℕ} (hN : N = n + 1) (f : Fin N → M) (h : n < N) : runTotal f n h = ∑ i : Fin N, f i := by
  subst hN
  rw [runTotal_eq_sum]

end Cert.LibRunTotal
-- ==== Proof.PairSum.lean ====
/-
  The quantity both programs compute, over the extended reals: for a table `d` of 32 rows and 2048 columns, the sum
  over rows `b` and column pairs `i < j` of `(d b i - d b j)²`, written with the 0/1 mask of `i < j` as a factor so
  that it is a sum over ALL pairs. Cutting the 2048 columns into 16 tiles of 128, that sum is the sum over tile pairs
  `(I, J)` of each pair's own sum, and a tile pair below the diagonal (`J < I`) contributes zero: every mask factor
  there is zero, and zero times any extended real is zero. So walking the 16 × 16 tile pairs in any order, adding the
  pair's sum where `I ≤ J` and nothing elsewhere, ends at the whole sum. Only the laws of a commutative monoid and
  `x * 0 = 0` are used: nothing here asks the entries to be finite.
-/
import Mathlib.Data.EReal.Operations
import Mathlib.Algebra.BigOperators.Fin
import proofs.«167769_j58935541235978_2_alg».proof.Proof.LibReindex
import proofs.«167769_j58935541235978_2_alg».proof.Proof.LibRunTotal

noncomputable section

namespace Cert.PairSum

open scoped BigOperators

/-- One on a pair of columns `i < j`, zero on every other pair. -/
def msk (i j : ℕ) : EReal := if i < j then 1 else 0

/-- The contribution of row `b` and the column pair `(i, j)`. -/
def term (d : Fin 32 → Fin 2048 → EReal) (b : Fin 32) (i j : Fin 2048) : EReal :=
  (d b i - d b j) * (d b i - d b j) * msk i.val j.val

/-- The whole sum. -/
def whole (d : Fin 32 → Fin 2048 → EReal) : EReal := ∑ b : Fin 32, ∑ i : Fin 2048, ∑ j : Fin 2048, term d b i j

/-- Column `p` of tile `I`. -/
def col (I : Fin 16) (p : Fin 128) : Fin 2048 := ⟨128 * I.val + p.val, by have := I.isLt; have := p.isLt; omega⟩

/-- The sum over one tile pair. -/
def tile (d : Fin 32 → Fin 2048 → EReal) (I J : Fin 16) : EReal :=
  ∑ b : Fin 32, ∑ p : Fin 128, ∑ q : Fin 128, term d b (col I p) (col J q)

/-- Below the diagonal every column of tile `I` lies to the right of every column of tile `J`: the mask is zero. -/
theorem tile_below (d : Fin 32 → Fin 2048 → EReal) (I J : Fin 16) (h : J.val < I.val) : tile d I J = 0 := by
  unfold tile
  refine Finset.sum_eq_zero fun b _ => Finset.sum_eq_zero fun p _ => Finset.sum_eq_zero fun q _ => ?_
  unfold term msk col
  have hp := p.isLt
  have hq := q.isLt
  rw [if_neg (by show ¬ (128 * I.val + p.val < 128 * J.val + q.val); omega), mul_zero]

/-- The whole sum, tile pair by tile pair. -/
theorem whole_eq_tiles (d : Fin 32 → Fin 2048 → EReal) : whole d = ∑ I : Fin 16, ∑ J : Fin 16, tile d I J := by
  unfold whole tile
  have h1 : ∀ b : Fin 32, ∑ i : Fin 2048, ∑ j : Fin 2048, term d b i j
      = ∑ I : Fin 16, ∑ p : Fin 128, ∑ J : Fin 16, ∑ q : Fin 128, term d b (col I p) (col J q) := by
    intro b
    rw [LibReindex.sum_mul_add' 16 128 rfl (fun i => ∑ j : Fin 2048, term d b i j)]
    refine Finset.sum_congr rfl fun I _ => Finset.sum_congr rfl fun p _ => ?_
    rw [LibReindex.sum_mul_add' 16 128 rfl (fun j => term d b _ j)]
    rfl
  rw [Finset.sum_congr rfl fun b _ => h1 b, Finset.sum_comm]
  refine Finset.sum_congr rfl fun I _ => ?_
  calc ∑ b : Fin 32, ∑ p : Fin 128, ∑ J : Fin 16, ∑ q : Fin 128, term d b (col I p) (col J q)
      = ∑ b : Fin 32, ∑ J : Fin 16, ∑ p : Fin 128, ∑ q : Fin 128, term d b (col I p) (col J q) :=
        Finset.sum_congr rfl fun b _ => Finset.sum_comm
    _ = ∑ J : Fin 16, ∑ b : Fin 32, ∑ p : Fin 128, ∑ q : Fin 128, term d b (col I p) (col J q) := Finset.sum_comm

/-- What grid point `t` (tile pair `(t / 16, t % 16)`) adds: its tile pair's sum on or above the diagonal, nothing below. -/
def pointTerm (d : Fin 32 → Fin 2048 → EReal) (t : Fin 256) : EReal :=
  if t.val / 16 ≤ t.val % 16 then
    tile d ⟨t.val / 16, by have := t.isLt; omega⟩ ⟨t.val % 16, by omega⟩
  else 0

/-- The points' contributions add up to the whole sum. -/
theorem sum_points (d : Fin 32 → Fin 2048 → EReal) : ∑ t : Fin 256, pointTerm d t = whole d := by
  rw [whole_eq_tiles, LibReindex.sum_mul_add 16 16 rfl (pointTerm d)]
  refine Finset.sum_congr rfl fun I _ => Finset.sum_congr rfl fun J _ => ?_
  have hJ := J.isLt
  have h1 : (I.val * 16 + J.val) / 16 = I.val := by omega
  have h2 : (I.val * 16 + J.val) % 16 = J.val := by omega
  unfold pointTerm
  by_cases hle : I.val ≤ J.val
  · rw [if_pos (by show (I.val * 16 + J.val) / 16 ≤ (I.val * 16 + J.val) % 16; rw [h1, h2]; exact hle)]
    exact congrArg₂ (tile d) (Fin.ext h1) (Fin.ext h2)
  · rw [if_neg (by show ¬ (I.val * 16 + J.val) / 16 ≤ (I.val * 16 + J.val) % 16; rw [h1, h2]; exact hle),
      tile_below d I J (by omega)]

/-- The accumulator's walk — zero plus the first point's contribution, then each later point's added on — ends at the whole sum. -/
theorem walk_total (d : Fin 32 → Fin 2048 → EReal) (h : 255 < 256) :
    LibRunTotal.runTotal (pointTerm d) 255 h = whole d :=
  (LibRunTotal.runTotal_last (n := 255) rfl (pointTerm d) h).trans (sum_points d)

end Cert.PairSum

end
-- ==== Proof.TileValue.lean ====
/-
  The accumulating store's payload, read on the extended reals: what an adding grid point (I, J) writes is what the
  accumulator held plus, over rows b and columns p of tile I and q of tile J, the squared difference
  (d b (128 I + p) - d b (128 J + q))² times the 0/1 mask of 128 I + p < 128 J + q, where d is the difference of the two
  argument arrays. The three lane sums are three finite sums; the broadcasts along rows, along columns and over the
  batch read their operand at the coordinates they copy; the mask's integer comparison of two numbers below 2048 is the
  comparison of the numbers.
-/
import proofs.«167769_j58935541235978_2_alg».proof.Proof.Gen.KernelIdeal.Skeleton
import proofs.«167769_j58935541235978_2_alg».proof.Proof.PairSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.TileValue

open Cert.KernelIdeal Cert.KernelIdeal.Gen Cert.PairSum
open Idealize.ShloMosaic Idealize.ShloMosaic.ValueIdx

/-! ## Layout operations at an index -/

/-- A [32,128] table copied along a new last axis reads its (b, p) entry at (b, p, q). -/
theorem along_rows {α : Type} (v : S32x128.Idx → α) (h1 : S32x128.ShapeCasts S32x128x1) (h2 : S32x128x1.Broadcasts S32x128x128)
    (b : Fin 32) (p q : Fin 128) :
    broadcastTo S32x128x128 (shapeCast S32x128x1 v h1) h2 (ix3 b p q) = v (ix2 b p) := by
  refine (broadcastTo_apply _ h2 (ix3 b p q) (ix3 b p (0 : Fin 1)) (fun a => by fin_cases a <;> rfl)).trans ?_
  exact shapeCast_apply v h1 _ (ix2 b p) (by rw [Shape.rowMajor_val_two, Shape.rowMajor_val_three]; simp)

/-- The same table copied along a new middle axis reads its (b, q) entry at (b, p, q). -/
theorem along_cols {α : Type} (v : S32x128.Idx → α) (h1 : S32x128.ShapeCasts S32x1x128) (h2 : S32x1x128.Broadcasts S32x128x128)
    (b : Fin 32) (p q : Fin 128) :
    broadcastTo S32x128x128 (shapeCast S32x1x128 v h1) h2 (ix3 b p q) = v (ix2 b q) := by
  refine (broadcastTo_apply _ h2 (ix3 b p q) (ix3 b (0 : Fin 1) q) (fun a => by fin_cases a <;> rfl)).trans ?_
  exact shapeCast_apply v h1 _ (ix2 b q) (by rw [Shape.rowMajor_val_two, Shape.rowMajor_val_three]; simp)

/-- A [128,128] table copied over the batch reads its (p, q) entry at (b, p, q). -/
theorem over_batch {α : Type} (w : S128x128.Idx → α) (h1 : S128x128.ShapeCasts S1x128x128) (h2 : S1x128x128.Broadcasts S32x128x128)
    (b : Fin 32) (p q : Fin 128) :
    broadcastTo S32x128x128 (shapeCast S1x128x128 w h1) h2 (ix3 b p q) = w (ix2 p q) := by
  refine (broadcastTo_apply _ h2 (ix3 b p q) (ix3 (0 : Fin 1) p q) (fun a => by fin_cases a <;> rfl)).trans ?_
  exact shapeCast_apply w h1 _ (ix2 p q) (by rw [Shape.rowMajor_val_two, Shape.rowMajor_val_three]; simp)

/-- A 32-vector as a [32,1] column. -/
theorem as_column {α : Type} (v : S32.Idx → α) (h : S32.ShapeCasts S32x1) (b : Fin 32) :
    shapeCast S32x1 v h (ix2 b (0 : Fin 1)) = v (ix1 b) :=
  shapeCast_apply v h _ (ix1 b) (by rw [Shape.rowMajor_val_one, Shape.rowMajor_val_two]; simp)

/-- A 1-vector as a [1,1] table. -/
theorem as_cell {α : Type} (v : S1.Idx → α) (h : S1.ShapeCasts S1x1) :
    shapeCast S1x1 v h (ix2 (0 : Fin 1) (0 : Fin 1)) = v (ix1 (0 : Fin 1)) :=
  shapeCast_apply v h _ (ix1 (0 : Fin 1)) (by rw [Shape.rowMajor_val_one, Shape.rowMajor_val_two]; simp)

theorem cell_eq (y : S1x1.Idx) : y = ix2 (0 : Fin 1) (0 : Fin 1) := by
  have h0 : (y 0).val < 1 := (y 0).isLt
  have h1 : (y 1).val < 1 := (y 1).isLt
  funext a
  match a with
  | ⟨0, _⟩ => exact Fin.ext (Nat.lt_one_iff.mp h0)
  | ⟨1, _⟩ => exact Fin.ext (Nat.lt_one_iff.mp h1)

/-! ## The three sums -/

theorem sum_lanes (src : FVec Ideal S32x128x128 .f32) (h : S32x128x128.Reduces [2] S32x128) (hφ : FKind.Formats .f32)
    (hacc : (0x00000000#32 : BitVec 32) = FKind.add.neutral .f32 hφ) (b : Fin 32) (p : Fin 128) :
    multiReduction .add [2] S32x128 src 0x00000000#32 h hφ hacc (ix2 b p) = ∑ q : Fin 128, src (ix3 b p q) :=
  (Ideal.multiReduction_add_single src 0x00000000#32 h hφ hacc (ix2 b p)).trans
    (Finset.sum_congr rfl fun q _ => congrArg src (funext fun c => Fin.ext (by fin_cases c <;> rfl)))

theorem sum_rows (src : FVec Ideal S32x128 .f32) (h : S32x128.Reduces [1] S32) (hφ : FKind.Formats .f32)
    (hacc : (0x00000000#32 : BitVec 32) = FKind.add.neutral .f32 hφ) (b : Fin 32) :
    multiReduction .add [1] S32 src 0x00000000#32 h hφ hacc (ix1 b) = ∑ p : Fin 128, src (ix2 b p) :=
  (Ideal.multiReduction_add_single src 0x00000000#32 h hφ hacc (ix1 b)).trans
    (Finset.sum_congr rfl fun p _ => congrArg src (funext fun c => Fin.ext (by fin_cases c <;> rfl)))

theorem sum_batch (src : FVec Ideal S32x1 .f32) (h : S32x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ b : Fin 32, src (ix2 b (0 : Fin 1)) :=
  (Ideal.multiReduction_add_single src 0x00000000#32 h hφ hacc (ix1 (0 : Fin 1))).trans
    (Finset.sum_congr rfl fun b _ => congrArg src (funext fun c => Fin.ext (by fin_cases c <;> rfl)))

/-! ## The mask -/

theorem slt_small (A B : ℕ) (hA : A < 4096) (hB : B < 4096) :
    (BitVec.ofNat 32 A).slt (BitVec.ofNat 32 B) = decide (A < B) := by
  have ha : (BitVec.ofNat 32 A).toInt = (A : Int) := by
    have h1 : (BitVec.ofNat 32 A).toNat = A := by rw [BitVec.toNat_ofNat]; exact Nat.mod_eq_of_lt (by omega)
    rw [BitVec.toInt_eq_toNat_cond, h1, if_pos (by omega)]
  have hb : (BitVec.ofNat 32 B).toInt = (B : Int) := by
    have h1 : (BitVec.ofNat 32 B).toNat = B := by rw [BitVec.toNat_ofNat]; exact Nat.mod_eq_of_lt (by omega)
    rw [BitVec.toInt_eq_toNat_cond, h1, if_pos (by omega)]
  unfold BitVec.slt
  rw [ha, hb]
  simp

/-- The kernel's mask entry at (p, q) of tile pair (I, J): one where column 128 I + p is left of column 128 J + q. -/
theorem mask_entry (i : grid0.Coords) (p q : Fin 128) :
    (sitofp (F := Ideal) .f32 (extui 32 (cmpi .slt
        (addi (broadcast S128x128 (Scalar.muli (BitVec.ofNat 32 (i 0).val) 128#32)) (iota .tc S128x128 32 [0] Facts₀.iota_S128x128_d0_w32))
        (addi (broadcast S128x128 (Scalar.muli (BitVec.ofNat 32 (i 1).val) 128#32)) (iota .tc S128x128 32 [1] Facts₀.iota_S128x128_d1_w32)))
        Facts₀.natLt_1_32) : FVec Ideal S128x128 .f32) (ix2 p q)
      = msk (128 * (i 0).val + p.val) (128 * (i 1).val + q.val) := by
  have hI : (i 0).val < 16 := (i 0).isLt
  have hJ : (i 1).val < 16 := (i 1).isLt
  have hp := p.isLt
  have hq := q.isLt
  show (((BitVec.setWidth 32 (BitVec.ofBool ((BitVec.ofNat 32 (i 0).val * 128#32 + BitVec.ofNat 32 (0 * 128 + p.val)).slt
      (BitVec.ofNat 32 (i 1).val * 128#32 + BitVec.ofNat 32 (0 * 128 + q.val))))).toInt : ℝ) : EReal) = _
  have ea : BitVec.ofNat 32 (i 0).val * 128#32 + BitVec.ofNat 32 (0 * 128 + p.val) = BitVec.ofNat 32 (128 * (i 0).val + p.val) := by
    apply BitVec.eq_of_toNat_eq
    simp only [BitVec.toNat_add, BitVec.toNat_mul, BitVec.toNat_ofNat]
    omega
  have eb : BitVec.ofNat 32 (i 1).val * 128#32 + BitVec.ofNat 32 (0 * 128 + q.val) = BitVec.ofNat 32 (128 * (i 1).val + q.val) := by
    apply BitVec.eq_of_toNat_eq
    simp only [BitVec.toNat_add, BitVec.toNat_mul, BitVec.toNat_ofNat]
    omega
  rw [ea, eb, slt_small _ _ (by omega) (by omega)]
  unfold msk
  by_cases hlt : 128 * (i 0).val + p.val < 128 * (i 1).val + q.val
  · rw [if_pos hlt, decide_eq_true hlt]
    show (((1 : Int) : ℝ) : EReal) = 1
    simp
  · rw [if_neg hlt, decide_eq_false hlt]
    show (((0 : Int) : ℝ) : EReal) = 0
    simp

/-! ## The payload -/

theorem pay2_apply (i : grid0.Coords) (v13 v15 v17 v19 : Vec Ideal S32x128 .f32) (v45 : Vec Ideal S1x1 .f32) (y : S1x1.Idx) :
    k0_pay2 (F := Ideal) i v13 v15 v17 v19 v45 y
      = v45 y + ∑ b : Fin 32, ∑ p : Fin 128, ∑ q : Fin 128,
          ((v13 (ix2 b p) - v15 (ix2 b p)) - (v17 (ix2 b q) - v19 (ix2 b q)))
            * ((v13 (ix2 b p) - v15 (ix2 b p)) - (v17 (ix2 b q) - v19 (ix2 b q)))
            * msk (128 * (i 0).val + p.val) (128 * (i 1).val + q.val) := by
  rw [cell_eq y]
  unfold k0_pay2
  refine (addf_apply _ _ _).trans ?_
  refine congrArg₂ (· + ·) (congrFun (shapeCast_self v45 _) _) ?_
  refine (as_cell _ _).trans ?_
  refine (sum_batch _ _ _ _).trans ?_
  refine Finset.sum_congr rfl fun b _ => ?_
  refine (as_column _ _ b).trans ?_
  refine (sum_rows _ _ _ _ b).trans ?_
  refine Finset.sum_congr rfl fun p _ => ?_
  refine (sum_lanes _ _ _ _ b p).trans ?_
  refine Finset.sum_congr rfl fun q _ => ?_
  refine (mulf_apply _ _ _).trans ?_
  have hD : ∀ (u w : FVec Ideal S32x128 .f32) (h1 : S32x128.ShapeCasts S32x128x1) (h2 : S32x128x1.Broadcasts S32x128x128)
      (h3 : S32x128.ShapeCasts S32x1x128) (h4 : S32x1x128.Broadcasts S32x128x128),
      subf (broadcastTo S32x128x128 (shapeCast S32x128x1 u h1) h2) (broadcastTo S32x128x128 (shapeCast S32x1x128 w h3) h4) (ix3 b p q)
        = u (ix2 b p) - w (ix2 b q) := fun u w h1 h2 h3 h4 =>
    (subf_apply _ _ _).trans (congrArg₂ (· - ·) (along_rows u h1 h2 b p q) (along_cols w h3 h4 b p q))
  refine congrArg₂ (· * ·) ?_ ((over_batch _ _ _ b p q).trans (mask_entry i p q))
  refine (mulf_apply _ _ _).trans ?_
  exact congrArg₂ (· * ·) ((hD _ _ _ _ _ _).trans (congrArg₂ (· - ·) (subf_apply _ _ _) (subf_apply _ _ _)))
    ((hD _ _ _ _ _ _).trans (congrArg₂ (· - ·) (subf_apply _ _ _) (subf_apply _ _ _)))

end Cert.KernelIdeal.TileValue

end
-- ==== Proof.DiffTable.lean ====
/-
  The table both programs work on: the entrywise difference of the two 32 × 2048 argument arrays, as a function of
  the row and the column.
-/
import proofs.«167769_j58935541235978_2_alg».proof.Proof.PairSum
import Idealize.ShloMosaic.Lib.ValueIdx

noncomputable section

namespace Cert.PairSum

open Idealize.ShloMosaic Idealize.ShloMosaic.ValueIdx

/-- `d b k = x0[b, k] - x1[b, k]`. -/
def diffTable (x0 x1 : (⟨2, ![32, 2048]⟩ : Shape).Idx → EReal) : Fin 32 → Fin 2048 → EReal :=
  fun b k => x0 (ix2 b k) - x1 (ix2 b k)

end Cert.PairSum

end
-- ==== Proof.KernelResult.lean ====
/-
  The idealized kernel's result. Each adding grid point (I, J) adds to the accumulator the pair sum of tile pair (I, J) of
  the difference table of the two argument arrays; the other points leave it alone; so after the last point the accumulator
  holds the whole pair sum, the one write-back puts that in the 1 × 1 result array, and the host lines after the region
  reshape it to a scalar and divide it by the pair count.
-/
import proofs.«167769_j58935541235978_2_alg».proof.Proof.IdealRun
import proofs.«167769_j58935541235978_2_alg».proof.Proof.TileValue
import proofs.«167769_j58935541235978_2_alg».proof.Proof.DiffTable
import Idealize.ShloMosaic.Lib.StableHlo.Run

set_option maxRecDepth 16384

noncomputable section

namespace Cert.KernelIdeal.Result

open Cert.KernelIdeal Cert.KernelIdeal.Gen Cert.KernelIdeal.Point Cert.KernelIdeal.Run Cert.KernelIdeal.TileValue Cert.PairSum
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The grid's points as tile pairs -/

/-- Point `t` is tile pair `(t / 16, t % 16)`. -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- It adds exactly on or above the diagonal. -/
theorem add_iff : ∀ t : Fin cfg0.N, k0_cond2 (grid0.coords t) = 1#1 ↔ t.val / 16 ≤ t.val % 16 :=
  (by decide +kernel : ∀ t : Fin grid0.N, k0_cond2 (grid0.coords t) = 1#1 ↔ t.val / 16 ≤ t.val % 16)

/-- Every window's block index is (0, 0) at every point. -/
theorem idx_zero : ∀ t : Fin cfg0.N, (∀ a : Fin 2, win0_0.index t a = 0) ∧ (∀ a : Fin 2, win0_1.index t a = 0) ∧ (∀ a : Fin 2, win0_2.index t a = 0) :=
  (by decide +kernel : ∀ t : Fin grid0.N, (∀ a : Fin 2, win0_0.index t a = 0) ∧ (∀ a : Fin 2, win0_1.index t a = 0) ∧ (∀ a : Fin 2, win0_2.index t a = 0))

/-! ## The input blocks are the whole arrays -/

theorem iblk0 (c : Dev nD) (t : Fin cfg0.N) : (iblk m c 0 t : Vec Ideal S32x2048 .f32) = V m c main_arg0 := by
  funext y
  show V m c main_arg0 (((cfg0.win 0).blk t).view.emb y) = V m c main_arg0 y
  refine congrArg (V m c main_arg0) (funext fun a => Fin.ext ?_)
  match a with
  | ⟨0, _⟩ => show win0_0.index t (0 : Fin 2) * 32 + 1 * (y 0).val = (y 0).val; rw [(idx_zero t).1 0]; omega
  | ⟨1, _⟩ => show win0_0.index t (1 : Fin 2) * 2048 + 1 * (y 1).val = (y 1).val; rw [(idx_zero t).1 1]; omega

theorem iblk1 (c : Dev nD) (t : Fin cfg0.N) : (iblk m c 1 t : Vec Ideal S32x2048 .f32) = V m c main_arg1 := by
  funext y
  show V m c main_arg1 (((cfg0.win 1).blk t).view.emb y) = V m c main_arg1 y
  refine congrArg (V m c main_arg1) (funext fun a => Fin.ext ?_)
  match a with
  | ⟨0, _⟩ => show win0_1.index t (0 : Fin 2) * 32 + 1 * (y 0).val = (y 0).val; rw [(idx_zero t).2.1 0]; omega
  | ⟨1, _⟩ => show win0_1.index t (1 : Fin 2) * 2048 + 1 * (y 1).val = (y 1).val; rw [(idx_zero t).2.1 1]; omega

/-! ## What an adding point adds -/

/-- A load of 128 columns at tile I's offset reads column 128 I + p. -/
theorem tile_cols1 (i : grid0.Coords) (inb : ∀ a, k0_off1 i a + S32x128.size a ≤ S32x2048.size a) (x : Vec Ideal S32x2048 .f32)
    (b : Fin 32) (p : Fin 128) :
    View.ld x (Rect.unit (s := S32x2048) (k0_off1 i) S32x128.size inb) (ix2 b p) = x (ix2 b (col ⟨(i 0).val, (i 0).isLt⟩ p)) := by
  show x ((Rect.unit (s := S32x2048) (k0_off1 i) S32x128.size inb).idx (ix2 b p)) = _
  refine congrArg x (funext fun a => Fin.ext ?_)
  match a with
  | ⟨0, _⟩ => show k0_off1 i 0 + 1 * b.val = b.val; rw [k0_off1_eq]; simp
  | ⟨1, _⟩ => show k0_off1 i 1 + 1 * p.val = 128 * (i 0).val + p.val; rw [k0_off1_eq]; simp

theorem tile_cols2 (i : grid0.Coords) (inb : ∀ a, k0_off2 i a + S32x128.size a ≤ S32x2048.size a) (x : Vec Ideal S32x2048 .f32)
    (b : Fin 32) (q : Fin 128) :
    View.ld x (Rect.unit (s := S32x2048) (k0_off2 i) S32x128.size inb) (ix2 b q) = x (ix2 b (col ⟨(i 1).val, (i 1).isLt⟩ q)) := by
  show x ((Rect.unit (s := S32x2048) (k0_off2 i) S32x128.size inb).idx (ix2 b q)) = _
  refine congrArg x (funext fun a => Fin.ext ?_)
  match a with
  | ⟨0, _⟩ => show k0_off2 i 0 + 1 * b.val = b.val; rw [k0_off2_eq]; simp
  | ⟨1, _⟩ => show k0_off2 i 1 + 1 * q.val = 128 * (i 1).val + q.val; rw [k0_off2_eq]; simp

/-- An adding point (I, J) adds the pair sum of tile pair (I, J). -/
theorem addOut_apply (i : grid0.Coords) (h2 : k0_cond2 i = 1#1) (x0 x1 : Vec Ideal S32x2048 .f32) (xo : Vec Ideal S1x1 .f32) (y : S1x1.Idx) :
    addOut (F := Ideal) i h2 x0 x1 xo y
      = xo y + tile (diffTable x0 x1) ⟨(i 0).val, (i 0).isLt⟩ ⟨(i 1).val, (i 1).isLt⟩ := by
  unfold addOut
  rw [pay2_apply]
  refine congrArg (xo y + ·) ?_
  unfold tile
  refine Finset.sum_congr rfl fun b _ => Finset.sum_congr rfl fun p _ => Finset.sum_congr rfl fun q _ => ?_
  rw [tile_cols1, tile_cols1, tile_cols2, tile_cols2]
  rfl

/-! ## The accumulator is the running total -/

/-- The difference table of the two argument arrays as the region finds them. -/
def dTab (c : Dev nD) : Fin 32 → Fin 2048 → EReal := diffTable (V m c main_arg0) (V m c main_arg1)

theorem step_add (c : Dev nD) (t : Fin cfg0.N) (h2 : k0_cond2 (grid0.coords t) = 1#1) (xo : Vec Ideal S1x1 .f32) (y : S1x1.Idx) :
    addOut (F := Ideal) (grid0.coords t) h2 (iblk m c 0 t) (iblk m c 1 t) xo y
      = xo y + pointTerm (dTab m c) ⟨t.val, lt_of_lt_of_eq t.isLt N_0⟩ := by
  rw [addOut_apply, iblk0, iblk1]
  refine congrArg (xo y + ·) ?_
  unfold pointTerm
  rw [if_pos ((add_iff t).mp h2)]
  exact congrArg₂ (tile _) (Fin.ext (coords_val t).1) (Fin.ext (coords_val t).2)

theorem step_idle (c : Dev nD) (t : Fin cfg0.N) (h2 : ¬ k0_cond2 (grid0.coords t) = 1#1) :
    pointTerm (dTab m c) ⟨t.val, lt_of_lt_of_eq t.isLt N_0⟩ = 0 := by
  unfold pointTerm
  rw [if_neg (fun h => h2 ((add_iff t).mpr h))]

theorem acc_eq (c : Dev nD) : ∀ (n : ℕ) (hn : n < cfg0.N),
    accAt m c n hn = fun _ => LibRunTotal.runTotal (pointTerm (dTab m c)) n (lt_of_lt_of_eq hn N_0)
  | 0, hn => by
    funext y
    have h2 := add_of_reset ⟨0, hn⟩ ((reset_iff ⟨0, hn⟩).mpr rfl)
    rw [congrFun (accAt_first m c ⟨0, hn⟩ rfl h2) y, step_add]
    show Ideal.ofBits .f32 0x00000000#32 + _ = 0 + _
    rw [Ideal.ofBits_zero_f32]
  | n + 1, hn => by
    funext y
    by_cases h2 : k0_cond2 (grid0.coords ⟨n + 1, hn⟩) = 1#1
    · rw [congrFun (accAt_add m c ⟨n + 1, hn⟩ (Nat.succ_ne_zero n) h2) y, step_add]
      show accAt m c n (Nat.lt_of_succ_lt hn) y + _ = _
      rw [acc_eq c n (Nat.lt_of_succ_lt hn)]
      rfl
    · rw [congrFun (accAt_idle m c ⟨n + 1, hn⟩ (Nat.succ_ne_zero n) h2) y]
      show accAt m c n (Nat.lt_of_succ_lt hn) y = _
      rw [acc_eq c n (Nat.lt_of_succ_lt hn)]
      show _ = LibRunTotal.runTotal (pointTerm (dTab m c)) n _ + pointTerm (dTab m c) ⟨n + 1, _⟩
      rw [step_idle m c ⟨n + 1, hn⟩ h2, add_zero]

/-! ## The result array after the run -/

theorem final (c : Dev nD) : (dats m 0 c).arrAt 2 cfg0.N = fun _ => whole (dTab m c) := by
  refine (dats m 0 c).arrAt_eq_of_cover 2 (fun _ => whole (dTab m c)) (fun t hf => ?_) (fun i => ?_)
  · show (dats m 0 c).after 2 t = _
    rw [after2, acc_eq]
    have ht : t.val = 255 := by
      have h1 := (flush0_2 t).mp hf
      have h2 : t.val < 256 := lt_of_lt_of_eq t.isLt N_0
      omega
    funext x
    rw [View.read_apply]
    obtain ⟨n, hn⟩ := t
    simp only at ht
    subst ht
    exact walk_total _ _
  · have hN : 255 < cfg0.N := by rw [show cfg0.N = 256 from N_0]; omega
    refine ⟨⟨255, hN⟩, (flush0_2 _).mpr rfl, ?_⟩
    show i ∈ ((View.whole main_v0).slice (win0_2.rect ⟨255, hN⟩)).set
    rw [View.set_slice_whole, Rect.mem_set_unit]
    intro a
    have h0 : (i 0).val < 1 := (i 0).isLt
    have h1 : (i 1).val < 1 := (i 1).isLt
    match a with
    | ⟨0, _⟩ => show win0_2.index ⟨255, hN⟩ (0 : Fin 2) * 1 ≤ (i 0).val ∧ (i 0).val < win0_2.index ⟨255, hN⟩ (0 : Fin 2) * 1 + 1; rw [(idx_zero _).2.2 0]; omega
    | ⟨1, _⟩ => show win0_2.index ⟨255, hN⟩ (1 : Fin 2) * 1 ≤ (i 1).val ∧ (i 1).val < win0_2.index ⟨255, hN⟩ (1 : Fin 2) * 1 + 1; rw [(idx_zero _).2.2 1]; omega

/-! ## The host lines after the region, and the run -/

/-- The scalar the program returns: the whole pair sum over the pair count. -/
def answer (c : Dev nD) : (⟨S_, .f32⟩ : BufTy).Contents (Elt Ideal) :=
  fun _ => FloatOps.hostDivf (whole (dTab m c)) (Ideal.ofBits .f32 0x4C7FE000#32)

theorem tail_value (c : Dev nD) :
    Pipeline.afterTail₀ cfgs (dats (F := Ideal) m) 0 (V0 m) [hostOps1] c main_v2 = answer m c := by
  unfold Pipeline.afterTail₀
  show StableHlo.after hostOps1 _ (Proc.devRef .tc main_v2) = _
  after_results
  have e : Pipeline.withArrays (cfgs 0).spec c (V0 m c) (fun w => (dats (F := Ideal) m 0 c).arrAt w (cfgs 0).N) (Proc.devRef .tc main_v0)
      = (dats m 0 c).arrAt 2 cfg0.N := Pipeline.withArrays_arr spec0 launch0.win.arr_inj c _ _ 2
  rw [e, final]
  rfl

/-- The idealized kernel runs to its end with its result at the whole pair sum over the pair count, its arguments unchanged. -/
theorem result_run : θ_run defs (onTc (τ := τ) (main (F := Ideal))) ⟨m, fun _ => 0, ρ⟩ (fun r => ∀ c : Dev nD,
      r.2.mem ((c.tc : Thread nD τ).loc main_v2) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v2 (by decide)).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Result

end
-- ==== Proof.LibIdx3.lean ====
/-
  A rank-3 index set is the product of its three coordinate ranges, so a sum over it is the triple sum over the
  coordinates. Over an arbitrary additive commutative monoid and any three extents.
-/
import Idealize.ShloMosaic.Lib.ValueIdx

namespace Cert.LibIdx3

open Idealize.ShloMosaic Idealize.ShloMosaic.ValueIdx
open scoped BigOperators

/-- A rank-3 index as its three coordinates, and back. -/
def idxEquiv3 {n0 n1 n2 : Nat} : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl

/-- A sum over a rank-3 index set is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdx3
-- ==== Proof.RefValue.lean ====
/-
  The reference, read on the extended reals: its sum over all (row, column, column) triples of the squared difference
  times the upper-triangle mask is the whole pair sum of the difference table, and its result is that sum divided by
  the pair count.
-/
import proofs.«167769_j58935541235978_2_alg».proof.Proof.Gen.ReferenceIdeal.Read
import proofs.«167769_j58935541235978_2_alg».proof.Proof.DiffTable
import proofs.«167769_j58935541235978_2_alg».proof.Proof.LibIdx3
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.PairSum
open Idealize.ShloMosaic Idealize.ShloMosaic.ValueIdx

theorem sle_small (A B : ℕ) (hA : A < 4096) (hB : B < 4096) :
    (BitVec.ofNat 32 B).sle (BitVec.ofNat 32 A) = decide (B ≤ A) := by
  have ha : (BitVec.ofNat 32 A).toInt = (A : Int) := by
    have h1 : (BitVec.ofNat 32 A).toNat = A := by rw [BitVec.toNat_ofNat]; exact Nat.mod_eq_of_lt (by omega)
    rw [BitVec.toInt_eq_toNat_cond, h1, if_pos (by omega)]
  have hb : (BitVec.ofNat 32 B).toInt = (B : Int) := by
    have h1 : (BitVec.ofNat 32 B).toNat = B := by rw [BitVec.toNat_ofNat]; exact Nat.mod_eq_of_lt (by omega)
    rw [BitVec.toInt_eq_toNat_cond, h1, if_pos (by omega)]
  unfold BitVec.sle
  rw [ha, hb]
  simp

/-- The upper-triangle mask at (i, j): zero where `j ≤ i`, one where `i < j`. -/
theorem triu_entry (i j : Fin 2048) : val_main_v7 (F := Ideal) (ix2 i j) = msk i.val j.val := by
  have hi := i.isLt
  have hj := j.isLt
  rw [val_main_v7_apply, val_main_call0_v4_apply, val_main_call0_v2_apply, val_main_call0_v0_apply, val_main_call0_v1_apply,
    val_main_call0_c_apply, val_main_call0_v3_apply, val_main_call0_v5_apply, val_main_call0_cst_apply, val_main_v6_apply,
    val_main_cst_apply]
  show Scalar.select (BitVec.ofBool ((BitVec.ofNat 32 j.val).sle (BitVec.ofNat 32 i.val + 0#32)))
    (Ideal.ofBits .f32 0x00000000#32) (Ideal.ofBits .f32 0x3F800000#32) = _
  rw [BitVec.add_zero, sle_small _ _ (by omega) (by omega)]
  unfold msk
  by_cases hlt : i.val < j.val
  · rw [if_pos hlt, decide_eq_false (by omega)]
    exact (select_zero _ _).trans (IdealRules.sign_bit.ideal_onePat .f32)
  · rw [if_neg hlt, decide_eq_true (by omega)]
    exact (select_one _ _).trans Ideal.ofBits_zero_f32

/-- One term of the reference's sum. -/
theorem term_entry (x0 x1 : (⟨S32x2048, .f32⟩ : BufTy).Contents (Elt Ideal)) (b : Fin 32) (i j : Fin 2048) :
    val_main_v11 (F := Ideal) x0 x1 (ix3 b i j) = term (diffTable x0 x1) b i j := by
  have e1 : idx_main_v1 (idx_main_v3 (ix3 b i j)) = ix2 b i := funext fun a => by match a with | ⟨0, _⟩ => rfl | ⟨1, _⟩ => rfl
  have e2 : idx_main_v2 (idx_main_v4 (ix3 b i j)) = ix2 b j := funext fun a => by match a with | ⟨0, _⟩ => rfl | ⟨1, _⟩ => rfl
  have e3 : idx_main_v9 (idx_main_v10 (ix3 b i j)) = ix2 i j := funext fun a => by match a with | ⟨0, _⟩ => rfl | ⟨1, _⟩ => rfl
  rw [val_main_v11_apply, val_main_v8_apply, val_main_v5_apply, val_main_v3_apply, val_main_v1_apply, val_main_v4_apply,
    val_main_v2_apply, val_main_v10_apply, val_main_v9_apply, e1, e2, e3, triu_entry, val_main_v0_apply, val_main_v0_apply]
  rfl

/-- The reference's sum is the whole pair sum. -/
theorem total_eq (x0 x1 : (⟨S32x2048, .f32⟩ : BufTy).Contents (Elt Ideal)) (i : S_.Idx) :
    val_main_v12 (F := Ideal) x0 x1 i = whole (diffTable x0 x1) := by
  rw [val_main_v12_apply, val_main_cst_0_apply]
  show Ideal.ofBits .f32 0x00000000#32 + _ = _
  rw [Ideal.ofBits_zero_f32, zero_add, LibIdx3.sum_idx3]
  unfold whole
  exact Finset.sum_congr rfl fun b _ => Finset.sum_congr rfl fun i _ => Finset.sum_congr rfl fun j _ => term_entry x0 x1 b i j

end Cert.ReferenceIdeal.RefValue

end
-- ==== Proof.lean ====
/-
  Both programs compute, for two 32 × 2048 arrays, the sum over rows b and column pairs i < j of
  ((x0 - x1)[b, i] - (x0 - x1)[b, j])², divided by the number of such pairs, 32 · 2048 · 2047 / 2.
  The reference sums over all 2048 × 2048 pairs with the 0/1 mask of i < j as a factor. The kernel cuts the columns into
  16 tiles of 128, walks the 16 × 16 tile pairs (I, J), zeroes a one-element accumulator at the first, adds the masked
  sum of tile pair (I, J) where I ≤ J, and skips the pairs with I > J, where every mask factor is zero. On the extended
  reals addition is commutative and associative and zero times anything is zero, so the two totals are one number with
  no assumption on the entries; the division by the same count on both sides is never opened. The kernel's idealization
  rewrote nothing, so it is preserved trivially; each program runs to its end without a fault and leaves its arguments
  as they were.
-/
import proofs.«167769_j58935541235978_2_alg».proof.Defs
import proofs.«167769_j58935541235978_2_alg».proof.Proof.Gen.Kernel
import proofs.«167769_j58935541235978_2_alg».proof.Proof.Gen.Kernel.Skeleton
import proofs.«167769_j58935541235978_2_alg».proof.Proof.Gen.Kernel.Launch
import proofs.«167769_j58935541235978_2_alg».proof.Proof.Gen.Kernel.Points
import proofs.«167769_j58935541235978_2_alg».proof.Proof.Gen.Kernel.Frame
import proofs.«167769_j58935541235978_2_alg».proof.Proof.Gen.KernelIdeal
import proofs.«167769_j58935541235978_2_alg».proof.Proof.Gen.KernelIdeal.Skeleton
import proofs.«167769_j58935541235978_2_alg».proof.Proof.Gen.KernelIdeal.Launch
import proofs.«167769_j58935541235978_2_alg».proof.Proof.Gen.KernelIdeal.Points
import proofs.«167769_j58935541235978_2_alg».proof.Proof.Gen.KernelIdeal.Frame
import proofs.«167769_j58935541235978_2_alg».proof.Proof.Gen.ReferenceIdeal
import proofs.«167769_j58935541235978_2_alg».proof.Proof.Gen.Pre_finite_inputs
import proofs.«167769_j58935541235978_2_alg».proof.Proof.Gen.ReferenceIdeal.Run
import proofs.«167769_j58935541235978_2_alg».proof.Proof.Gen.ReferenceIdeal.Read
import proofs.«167769_j58935541235978_2_alg».proof.Proof.WordRun
import proofs.«167769_j58935541235978_2_alg».proof.Proof.KernelResult
import proofs.«167769_j58935541235978_2_alg».proof.Proof.RefValue
import Idealize.ShloMosaic.Adequacy
import Idealize.ShloMosaic.Init

noncomputable section

namespace Cert.Proof

open Idealize.ShloMosaic Idealize.SL.Sem

theorem frame_word : Cert.frame_Kernel := fun m ρ _ => Cert.Kernel.Run.frame m ρ

theorem frame_ideal : Cert.frame_KernelIdeal := fun m ρ _ => Cert.KernelIdeal.Run.frame m ρ

theorem frame_ref : Cert.frame_ReferenceIdeal := fun m ρ _ =>
  (θ_run Cert.ReferenceIdeal.defs _ _).mono (fun _ h c => (h c).2) (Cert.ReferenceIdeal.Value.run (F := Ideal) m ρ)

/-- From arguments that agree, the kernel's result is the whole pair sum of their difference table over the pair count,
    and the reference's result is the same expression of the same table. -/
theorem algebraic : Cert.algebraic_KernelIdeal_ReferenceIdeal := by
  intro m ρ m' ρ' _ hagree
  refine ⟨fun c => Cert.KernelIdeal.Result.answer m c, Cert.KernelIdeal.Result.result_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  funext i
  rw [Cert.ReferenceIdeal.Read.val_main_v13_apply, Cert.ReferenceIdeal.RefValue.total_eq, Cert.ReferenceIdeal.Read.val_main_cst_1_apply]
  rfl

theorem claim : Cert.Claim := ⟨Cert.Kernel.Gen.facts, Cert.KernelIdeal.Gen.facts, Cert.ReferenceIdeal.Gen.facts, Cert.Pre_finite_inputs.Gen.facts,
  frame_word, frame_ideal, frame_ref, trivial, algebraic⟩

end Cert.Proof

end
